-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2048x256 : Shape := ⟨2, ![2048, 256]⟩
abbrev S1x2048 : Shape := ⟨2, ![1, 2048]⟩
abbrev S128x2304 : Shape := ⟨2, ![128, 2304]⟩
abbrev S128 : Shape := ⟨1, ![128]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1x2048 : S_.BroadcastsInDim S1x2048 (![] : Fin 0 → Fin S1x2048.rank)
  reducesTo_S1x2048_S_d0_1 : S1x2048.ReducesTo [0, 1] S_
  bcast_S_S128x2304 : S_.BroadcastsInDim S128x2304 (![] : Fin 0 → Fin S128x2304.rank)
  reducesTo_S128x2304_S_d0_1 : S128x2304.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x2304 1) : IVec S_ 1 :=
  let main_c_5 : IVec S_ 1 := constantI S_ 1 1#1
  let main_v17 : IVec S_ 1 := (fun x v => Host.reduce IntOp.andi x v reducesTo_S128x2304_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16384x256 .f32) (main_arg1 : FVec F S2048x256 .f32) (main_arg2 : FVec F S1x2048 .f32) (main_arg3 : FVec F S128x2304 .f32) (main_arg4 : FVec F S128 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S128x2304 .f32 := Host.absf main_arg3
  let main_cst_4 : FVec F S_ .f32 := constant S_ .f32 0x7F800000#32
  let main_v15 : FVec F S128x2304 .f32 := broadcastInDim S128x2304 ![] bcast_S_S128x2304 main_cst_4
  let main_v16 : IVec S128x2304 1 := cmpf .olt main_v14 main_v15
  fn_part1 (F := F) main_arg4 main_v13 main_v16
-- ==== Kernel.lean ====
abbrev S16384x256 : Shape := ⟨2, ![16384, 256]⟩
abbrev S2048x256 : Shape := ⟨2, ![2048, 256]⟩
abbrev S1x2048 : Shape := ⟨2, ![1, 2048]⟩
abbrev S128x2304 : Shape := ⟨2, ![128, 2304]⟩
abbrev S128 : Shape := ⟨1, ![128]⟩
abbrev S128x256 : Shape := ⟨2, ![128, 256]⟩
abbrev S128x2048 : Shape := ⟨2, ![128, 2048]⟩
abbrev S16384x128 : Shape := ⟨2, ![16384, 128]⟩
abbrev S512x256 : Shape := ⟨2, ![512, 256]⟩
abbrev S1024x256 : Shape := ⟨2, ![1024, 256]⟩
abbrev S1x1024 : Shape := ⟨2, ![1, 1024]⟩
abbrev S128x1024 : Shape := ⟨2, ![128, 1024]⟩
abbrev S512x128 : Shape := ⟨2, ![512, 128]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1024x128 : Shape := ⟨2, ![1024, 128]⟩
abbrev S256x128 : Shape := ⟨2, ![256, 128]⟩
abbrev S1x128 : Shape := ⟨2, ![1, 128]⟩

abbrev nBuf : Space → Nat
  | .hbm => 8
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S2048x256, .f32⟩
  | .hbm, ⟨2, _⟩ => ⟨S1x2048, .f32⟩
  | .hbm, ⟨3, _⟩ => ⟨S128x2304, .f32⟩
  | .hbm, ⟨4, _⟩ => ⟨S128, .f32⟩
  | .hbm, ⟨5, _⟩ => ⟨S128x256, .f32⟩
  | .hbm, ⟨6, _⟩ => ⟨S128x2048, .f32⟩
  | .hbm, ⟨7, _⟩ => ⟨S16384x128, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S128x256, .f32⟩
  | .local _ .vmem, ⟨7, _⟩ => ⟨S128x1024, .f32⟩
  | .local _ .vmem, ⟨8, _⟩ => ⟨S128x1024, .f32⟩
  | .local _ .vmem, ⟨9, _⟩ => ⟨S128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v39 : BitVec 1 := Scalar.cmpi .eq arg1 c1_i32
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S128x2304_S128x256_0_0 : S128x2304.Slices ![0, 0] S128x256
  slices_S128x2304_S128x2048_0_256 : S128x2304.Slices ![0, 256] S128x2048
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  bitsLt_bf16_f32 : FTy.bits .bf16 < FTy.bits .f32
  transposes_S1024x256_p1_0_S256x1024 : S1024x256.Transposes [1, 0] S256x1024
  reduces_S512x256_S512 : S512x256.Reduces [1] S512
  shapeCasts_S512_S512x1 : S512.ShapeCasts S512x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  broadcasts_S1x1024_S512x1024 : S1x1024.Broadcasts S512x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  transposes_S128x1024_p1_0_S1024x128 : S128x1024.Transposes [1, 0] S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  dot_S512x256_S256x1024_S512x1024_1_0_0_1_n_n_wf : DotDims.WF S512x256 S256x1024 S512x1024 [1] [0] [0] [1] [] []
  dot_S512x1024_S1024x128_S512x128_1_0_0_1_n_n_wf : DotDims.WF S512x1024 S1024x128 S512x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S2048x256.size a
  hwx0_1 : ∀ i : grid0.Coords, EltTy.bits .f32 = 32 ∨ (Rect.block (s := S2048x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x2048.size a
  hwx0_4 : ∀ i : grid0.Coords, EltTy.bits .f32 = 32 ∨ (Rect.block (s := S128x2048) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S16384x128.size a
  hwx0_6 : ∀ i : grid0.Coords, EltTy.bits .f32 = 32 ∨ (Rect.block (s := S16384x128) S512x128.size (cc0_transform_6 i) (hinb0_6 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x256 : Shape := ⟨2, ![16384, 256]⟩
abbrev S2048x256 : Shape := ⟨2, ![2048, 256]⟩
abbrev S1x2048 : Shape := ⟨2, ![1, 2048]⟩
abbrev S128x2304 : Shape := ⟨2, ![128, 2304]⟩
abbrev S128 : Shape := ⟨1, ![128]⟩
abbrev S_ : Shape := ⟨0, ![]⟩
abbrev S16384 : Shape := ⟨1, ![16384]⟩
abbrev S16384x1 : Shape := ⟨2, ![16384, 1]⟩
abbrev S2048 : Shape := ⟨1, ![2048]⟩
abbrev S256x2048 : Shape := ⟨2, ![256, 2048]⟩
abbrev S16384x2048 : Shape := ⟨2, ![16384, 2048]⟩
abbrev S16384x2304 : Shape := ⟨2, ![16384, 2304]⟩
abbrev S2304x128 : Shape := ⟨2, ![2304, 128]⟩
abbrev S16384x128 : Shape := ⟨2, ![16384, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2048x256, .f32⟩
  | .hbm, ⟨2, _⟩ => ⟨S1x2048, .f32⟩
  | .hbm, ⟨3, _⟩ => ⟨S128x2304, .f32⟩
  | .hbm, ⟨4, _⟩ => ⟨S128, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S2048x256, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S256x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2304, .f32⟩
  | .hbm, ⟨27, _⟩ => ⟨S2304x128, .f32⟩
  | .hbm, ⟨28, _⟩ => ⟨S16384x128, .f32⟩
  | .hbm, ⟨29, _⟩ => ⟨S1x128, .f32⟩
  | .hbm, ⟨30, _⟩ => ⟨S16384x128, .f32⟩
  | .hbm, ⟨31, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S2048x256_S2048_d1 : S2048x256.ReducesTo [1] S2048
  bcast_S2048_S1x2048_1 : S2048.BroadcastsInDim S1x2048 (![1] : Fin 1 → Fin S1x2048.rank)
  transposes_S2048x256_S256x2048_1_0 : S2048x256.Transposes [1, 0] S256x2048
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  concatenates_S16384x256_S16384x2048_S16384x2304_d1 : Shape.Concatenates [S16384x256, S16384x2048] S16384x2304 1
  transposes_S128x2304_S2304x128_1_0 : S128x2304.Transposes [1, 0] S2304x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x256_S256x2048_S16384x2048_1_0_0_1_n_n_wf : DotDims.WF S16384x256 S256x2048 S16384x2048 [1] [0] [0] [1] [] []
  dot_S16384x2304_S2304x128_S16384x128_1_0_0_1_n_n_wf : DotDims.WF S16384x2304 S2304x128 S16384x128 [1] [0] [0] [1] [] []

variable [Facts₀]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x2304_S2304x128_S16384x128_1_0_0_1_n_n : DotDims S16384x2304 S2304x128 S16384x128 where
  lhsContracting := [1]
  rhsContracting := [0]
  lhsNonContracting := [0]
  rhsNonContracting := [1]
  lhsBatch := []
  rhsBatch := []
  wf := dot_S16384x2304_S2304x128_S16384x128_1_0_0_1_n_n_wf

class Facts : Prop extends Facts₀ where

variable [Facts]
-- ==== Proof.StepPieces.lean ====
/-
  What one grid step of the kernel leaves behind, as pure functions of what it loaded.

  The kernel walks a 32 x 2 grid. Step (i, j) sees 512 rows of the batch, 1024 of the centres with their rates,
  the matching 1024 columns of the radial weights, all of the linear weights and the bias, and an accumulator of
  512 x 128 partial outputs that it keeps between steps.
    * At j = 0 it first clears the accumulator, then adds this step's radial contribution to it.
    * At j = 1 it adds this step's radial contribution to what the step before left, and then writes
      accumulator + linear part + bias into the output block.
  The run of the body found, per case, the list of stores each buffer ends with. Here each list is read back as one
  value: every store covers its whole buffer from offset zero, so the last store wins and a load of a whole buffer is
  the buffer's contents. The statements hold for any float instance.
-/
import proofs.«137700_j6760278524220_1_alg».proof.Proof.Gen.KernelIdeal.Frame
import Idealize.ShloMosaic.Lib.Pipeline.Value
import Idealize.ShloMosaic.Lib.Tactic

set_option maxRecDepth 16384

noncomputable section

namespace Cert.KernelIdeal.Step

open Cert.KernelIdeal Cert.KernelIdeal.Gen Idealize.ShloMosaic Idealize.ShloMosaic.TcCoe Idealize.SL.Sem Idealize.ShloMosaic.Tactic

variable {F : FTy → Type} [FloatOps F]

/-- The zero offset of a two-axis buffer, as a constant function. -/
theorem origin2 : (![0, 0] : Fin 2 → Nat) = fun _ => 0 := funext fun a => by fin_cases a <;> rfl

/-- The zero offset of a one-axis buffer, as a constant function. -/
theorem origin1 : (![0] : Fin 1 → Nat) = fun _ => 0 := funext fun a => by fin_cases a; rfl

/-- The accumulator after one more contribution: the previous accumulator `acc` plus the radial features of the
    batch rows `x` against the centres `cs` with rates `rate`, weighted by the columns `w`. -/
abbrev accumulate (x : Vec F S512x256 .f32) (cs : Vec F S1024x256 .f32) (rate : Vec F S1x1024 .f32)
    (w : Vec F S128x1024 .f32) (acc : Vec F S512x128 .f32) : Vec F S512x128 .f32 :=
  k0_pay1 (k0_pay5 x cs rate w acc)

/-- A step at j = 0 leaves in the accumulator the cleared accumulator plus its own contribution. -/
theorem acc_first (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x256 .f32) (x1 : Vec F S1024x256 .f32) (x2 : Vec F S1x1024 .f32) (x3 : Vec F S128x256 .f32) (x4 : Vec F S128x1024 .f32) (x5 : Vec F S128 .f32) :
    sout0_A_0 c i arg2 harg2 arg3 harg3 arg4 harg4 arg5 harg5 arg6 harg6 arg7 harg7 arg8 harg8 arg9 harg9 hc0 hc1 x0 x1 x2 x3 x4 x5 = accumulate x0 x1 x2 x4 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x128) origin2, View.readCov_unit_zero (S := S512x128) _ origin2]
  simp only [View.readAt_eq_ld, harg2.read_unread, harg3.read_unread, harg4.read_unread, harg6.read_unread,
    View.ld_unit_zero (S := S512x256) origin2, View.ld_unit_zero (S := S1024x256) origin2,
    View.ld_unit_zero (S := S1x1024) origin2, View.ld_unit_zero (S := S128x1024) origin2]

/-- A step at j = 1 leaves in the accumulator what the step before left plus its own contribution. -/
theorem acc_second (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x256 .f32) (x1 : Vec F S1024x256 .f32) (x2 : Vec F S1x1024 .f32) (x3 : Vec F S128x256 .f32) (x4 : Vec F S128x1024 .f32) (x5 : Vec F S128 .f32) (xs0 : Vec F S512x128 .f32) :
    sout0_B_0 c i arg2 harg2 arg3 harg3 arg4 harg4 arg5 harg5 arg6 harg6 arg7 harg7 arg8 harg8 arg9 harg9 hc0 hc1 x0 x1 x2 x3 x4 x5 xs0 = accumulate x0 x1 x2 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero origin2]
  simp only [View.readAt_eq_ld, harg2.read_unread, harg3.read_unread, harg4.read_unread, harg6.read_unread, harg9.read_unread,
    View.ld_unit_zero (S := S512x256) origin2, View.ld_unit_zero (S := S1024x256) origin2,
    View.ld_unit_zero (S := S1x1024) origin2, View.ld_unit_zero (S := S128x1024) origin2,
    View.ld_unit_zero (S := S512x128) origin2]

/-- A step at j = 1 leaves in the output block the finished accumulator plus the linear part plus the bias. -/
theorem out_second (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x256 .f32) (x1 : Vec F S1024x256 .f32) (x2 : Vec F S1x1024 .f32) (x3 : Vec F S128x256 .f32) (x4 : Vec F S128x1024 .f32) (x5 : Vec F S128 .f32) (xs0 : Vec F S512x128 .f32) :
    out0_B_6 c i arg2 harg2 arg3 harg3 arg4 harg4 arg5 harg5 arg6 harg6 arg7 harg7 arg8 harg8 arg9 harg9 hc0 hc1 x0 x1 x2 x3 x4 x5 xs0 = k0_pay2 (k0_pay4 x0) x3 x5 (accumulate x0 x1 x2 x4 xs0) := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero origin2, View.readCov_unit_zero (S := S512x128) _ origin2]
  simp only [View.readAt_eq_ld, harg2.read_unread, harg3.read_unread, harg4.read_unread, harg5.read_unread, harg6.read_unread,
    harg7.read_unread, harg9.read_unread,
    View.ld_unit_zero (S := S512x256) origin2, View.ld_unit_zero (S := S1024x256) origin2,
    View.ld_unit_zero (S := S1x1024) origin2, View.ld_unit_zero (S := S128x1024) origin2,
    View.ld_unit_zero (S := S512x128) origin2, View.ld_unit_zero (S := S128x256) origin2,
    View.ld_unit_zero (S := S128) origin1]

end Cert.KernelIdeal.Step

end
-- ==== Proof.RadialSpec.lean ====
/-
  A layer of radial basis functions, as one function of its five arrays.

  For a batch X of 16384 points in 256 coordinates, 2048 centres C with rates beta, a weight matrix W of 128 rows
  and 256 + 2048 columns and a bias b of 128 entries, the layer's output at point n and unit o is

      sum over d < 256 of  X(n,d) * W(o, d)
    + sum over m < 2048 of exp( -beta(m) * ( |X(n)|^2 + |C(m)|^2 - 2 * <X(n), C(m)> ) ) * W(o, 256 + m)
    + b(o)

  read on the extended reals, the constant 2 being the float word of 2.0 read exactly. The squared distance is kept
  in its expanded form because both programs compute it that way.

  Two ways of adding up the same terms meet this function: one sum over all 2304 columns of W, and three partial
  sums (the 256 linear columns, and the 2048 radial columns in two halves of 1024). They agree because a finite
  sum over a concatenated range is the sum of the sums over its parts; only the commutative monoid of addition on
  the extended reals is used, so no finiteness of the inputs is needed.
-/
import Idealize.ShloMosaic.PureOps.Ideal.Laws
import Idealize.ShloMosaic.Lib.ValueIdx
import Mathlib.Algebra.BigOperators.Fin

noncomputable section

namespace Cert.Rbf

open Idealize.ShloMosaic Idealize.ShloMosaic.ValueIdx

/-- The float word of 2.0, read as an extended real. It appears as the same word on both sides and is never evaluated. -/
abbrev two : EReal := Ideal.ofBits .f32 0x40000000#32

/-- One radial feature of a point `x` against a centre `c` with rate `rate`, the squared distance expanded. -/
def radial {D : ℕ} (x c : Fin D → EReal) (rate : EReal) : EReal :=
  Ideal.exp (-rate * ((∑ d, x d * x d + ∑ d, c d * c d) - two * ∑ d, x d * c d))

/-- The column of the weights that multiplies coordinate `d` of a point. -/
def linCol (d : Fin 256) : Fin 2304 := ⟨d.val, by omega⟩

/-- The column of the weights that multiplies the radial feature of centre `m`. -/
def radCol (m : Fin 2048) : Fin 2304 := ⟨256 + m.val, by omega⟩

/-- Point `p` of the `i`-th run of 512 consecutive points. -/
def row (i : Fin 32) (p : Fin 512) : Fin 16384 := ⟨512 * i.val + p.val, by omega⟩

/-- Centre `q` of the first half of the centres. -/
def loHalf (q : Fin 1024) : Fin 2048 := ⟨q.val, by omega⟩

/-- Centre `q` of the second half of the centres. -/
def hiHalf (q : Fin 1024) : Fin 2048 := ⟨1024 + q.val, by omega⟩

variable (X : (⟨2, ![16384, 256]⟩ : Shape).Idx → EReal) (C : (⟨2, ![2048, 256]⟩ : Shape).Idx → EReal)
  (rates : (⟨2, ![1, 2048]⟩ : Shape).Idx → EReal) (W : (⟨2, ![128, 2304]⟩ : Shape).Idx → EReal)
  (b : (⟨1, ![128]⟩ : Shape).Idx → EReal)

/-- The radial feature of point `n` against centre `m`. -/
def feature (n : Fin 16384) (m : Fin 2048) : EReal :=
  radial (fun d : Fin 256 => X (ix2 n d)) (fun d : Fin 256 => C (ix2 m d)) (rates (ix2 (0 : Fin 1) m))

/-- The linear part of the output at point `n`, unit `o`. -/
def linear (n : Fin 16384) (o : Fin 128) : EReal := ∑ d : Fin 256, X (ix2 n d) * W (ix2 o (linCol d))

/-- The layer's output at point `n`, unit `o`. -/
def layerAt (n : Fin 16384) (o : Fin 128) : EReal :=
  (linear X W n o + ∑ m : Fin 2048, feature X C rates n m * W (ix2 o (radCol m))) + b (ix1 o)

/-- The layer's output as an array of 16384 x 128 extended reals. -/
def layer : (⟨2, ![16384, 128]⟩ : Shape).Idx → EReal :=
  fun j => layerAt X C rates W b (j 0 : Fin 16384) (j 1 : Fin 128)

theorem layer_apply (n : Fin 16384) (o : Fin 128) : layer X C rates W b (ix2 n o) = layerAt X C rates W b n o := rfl

/-! ## The two ways of adding the terms up -/

section Sums
variable {M : Type*} [AddCommMonoid M]

/-- A sum over all 2304 columns is the sum over the 256 linear columns plus the sum over the 2048 radial ones. -/
theorem sum_columns (f : Fin 2304 → M) : ∑ k, f k = ∑ d : Fin 256, f (linCol d) + ∑ m : Fin 2048, f (radCol m) :=
  (Fin.sum_univ_add (a := 256) (b := 2048) f).trans
    (congrArg₂ (· + ·) (Finset.sum_congr rfl fun d _ => congrArg f (Fin.ext rfl))
      (Finset.sum_congr rfl fun m _ => congrArg f (Fin.ext rfl)))

/-- A sum over all 2048 centres is the sum over the first 1024 plus the sum over the last 1024. -/
theorem sum_halves (g : Fin 2048 → M) : ∑ m, g m = ∑ q : Fin 1024, g (loHalf q) + ∑ q : Fin 1024, g (hiHalf q) :=
  (Fin.sum_univ_add (a := 1024) (b := 1024) g).trans
    (congrArg₂ (· + ·) (Finset.sum_congr rfl fun q _ => congrArg g (Fin.ext rfl))
      (Finset.sum_congr rfl fun q _ => congrArg g (Fin.ext rfl)))

/-- Accumulating from zero the two halves of the radial sum, then adding the linear part and the bias, is the linear
    part plus the whole radial sum plus the bias. -/
theorem accumulated_eq (g : Fin 2048 → M) (lin bias : M) :
    (((0 + ∑ q : Fin 1024, g (loHalf q)) + ∑ q : Fin 1024, g (hiHalf q)) + lin) + bias = (lin + ∑ m, g m) + bias := by
  rw [zero_add, ← sum_halves, add_comm (∑ m, g m) lin]

end Sums

end Cert.Rbf

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.TileValue.lean ====
/-
  One grid step's arithmetic, entry by entry, on the extended reals.

  A step holds 512 points `x`, 1024 centres `cs` with their rates `rate`, the 1024 matching columns `w` of the radial
  weights, and an accumulator `acc`. Its new accumulator at (p, o) is

      acc(p, o) + sum over q < 1024 of radial(x(p), cs(q), rate(q)) * w(o, q),

  and the value a last step writes out at (p, o), from the finished accumulator `a`, the linear weights `lw` and the
  bias, is  (a(p, o) + sum over d < 256 of x(p, d) * lw(o, d)) + bias(o).

  Every product of matrices here is a plain one into a zero accumulator, so it is a sum over the contracted index; the
  roundings to a shorter float format are the identity on the extended reals; a transposed operand is read with its
  coordinates swapped; a sum along a row from the zero word is the row's sum; a row or column stretched over the tile is
  read at its own coordinate; and zero minus a rate is the rate negated.
-/
import proofs.«137700_j6760278524220_1_alg».proof.Proof.Gen.KernelIdeal.Skeleton
import proofs.«137700_j6760278524220_1_alg».proof.Proof.RadialSpec
import proofs.«137700_j6760278524220_1_alg».proof.Proof.LibTileRead
import proofs.«137700_j6760278524220_1_alg».proof.Proof.LibColumnOps
import proofs.«137700_j6760278524220_1_alg».proof.Proof.LibColumnSum

noncomputable section

namespace Cert.KernelIdeal.Tile

open Cert.KernelIdeal Cert.KernelIdeal.Gen Idealize.ShloMosaic Idealize.ShloMosaic.ValueIdx
open Cert.Lib.TileRead Cert.Lib.ColumnSum Idealize.ShloMosaic.ColumnOps Cert.Rbf

/-- Points against centres: 512 x 256 by 256 x 1024. -/
theorem cross_plain : PlainDot dot_S512x256_S256x1024_S512x1024_1_0_0_1_n_n where
  hr := rfl
  hs := rfl
  l0 := fun j q => by
    unfold DotDims.lhsIdx
    rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
    rfl
  l1 := fun j q => dot_S512x256_S256x1024_S512x1024_1_0_0_1_n_n.lhsIdx_val_of_single rfl j q
  r0 := fun j q => dot_S512x256_S256x1024_S512x1024_1_0_0_1_n_n.rhsIdx_val_of_single rfl j q
  r1 := fun j q => by
    unfold DotDims.rhsIdx
    rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
    rfl

/-- Radial features against their weights: 512 x 1024 by 1024 x 128. -/
theorem radial_plain : PlainDot dot_S512x1024_S1024x128_S512x128_1_0_0_1_n_n where
  hr := rfl
  hs := rfl
  l0 := fun j q => by
    unfold DotDims.lhsIdx
    rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
    rfl
  l1 := fun j q => dot_S512x1024_S1024x128_S512x128_1_0_0_1_n_n.lhsIdx_val_of_single rfl j q
  r0 := fun j q => dot_S512x1024_S1024x128_S512x128_1_0_0_1_n_n.rhsIdx_val_of_single rfl j q
  r1 := fun j q => by
    unfold DotDims.rhsIdx
    rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
    rfl

/-- Points against the linear weights: 512 x 256 by 256 x 128. -/
theorem linear_plain : PlainDot dot_S512x256_S256x128_S512x128_1_0_0_1_n_n where
  hr := rfl
  hs := rfl
  l0 := fun j q => by
    unfold DotDims.lhsIdx
    rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
    rfl
  l1 := fun j q => dot_S512x256_S256x128_S512x128_1_0_0_1_n_n.lhsIdx_val_of_single rfl j q
  r0 := fun j q => dot_S512x256_S256x128_S512x128_1_0_0_1_n_n.rhsIdx_val_of_single rfl j q
  r1 := fun j q => by
    unfold DotDims.rhsIdx
    rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
    rfl

variable (x : FVec Ideal S512x256 .f32) (cs : FVec Ideal S1024x256 .f32) (rate : FVec Ideal S1x1024 .f32)
  (w : FVec Ideal S128x1024 .f32) (acc : FVec Ideal S512x128 .f32)

/-- Zero minus the rates, stretched over the tile, is at (p, q) the rate of centre q negated. -/
theorem neg_rate_apply (p : Fin 512) (q : Fin 1024) :
    broadcastTo S512x1024 (subf (F := Ideal) (broadcast S1x1024 (FloatOps.ofBits (F := Ideal) .f32 0x00000000#32)) rate)
      broadcasts_S1x1024_S512x1024 (ix2 p q) = -(rate (ix2 (0 : Fin 1) q)) := by
  refine (broadcastTo_row_apply _ _ p q).trans ?_
  show Ideal.ofBits .f32 0x00000000#32 - rate (ix2 (0 : Fin 1) q) = _
  rw [Ideal.ofBits_zero_f32, zero_sub]

/-- The squared lengths of the points, kept as a column and stretched over the tile: at (p, q) the squared length of
    point p. -/
theorem point_sq_apply (hφ : FKind.Formats .f32) (hacc : (0x00000000#32 : BitVec 32) = FKind.add.neutral .f32 hφ)
    (p : Fin 512) (q : Fin 1024) :
    broadcastTo S512x1024
      (shapeCast S512x1 (multiReduction (F := Ideal) .add [1] S512 (mulf (F := Ideal) x x) 0x00000000#32 reduces_S512x256_S512 hφ hacc) shapeCasts_S512_S512x1)
      broadcasts_S512x1_S512x1024 (ix2 p q) = ∑ d : Fin 256, x (ix2 p d) * x (ix2 p d) :=
  (broadcastTo_col_apply _ _ p q).trans
    ((shapeCast_column_apply _ _ p (0 : Fin 1)).trans (lane_sum_apply (mulf (F := Ideal) x x) reduces_S512x256_S512 hφ hacc p))

/-- The squared lengths of the centres, kept as a column, laid down as a row and stretched over the tile: at (p, q) the
    squared length of centre q. -/
theorem centre_sq_apply (hφ : FKind.Formats .f32) (hacc : (0x00000000#32 : BitVec 32) = FKind.add.neutral .f32 hφ)
    (p : Fin 512) (q : Fin 1024) :
    broadcastTo S512x1024
      (transpose S1x1024 [1, 0]
        (shapeCast S1024x1 (multiReduction (F := Ideal) .add [1] S1024 (mulf (F := Ideal) cs cs) 0x00000000#32 reduces_S1024x256_S1024 hφ hacc) shapeCasts_S1024_S1024x1)
        transposes_S1024x1_p1_0_S1x1024)
      broadcasts_S1x1024_S512x1024 (ix2 p q) = ∑ d : Fin 256, cs (ix2 q d) * cs (ix2 q d) :=
  (broadcastTo_row_apply _ _ p q).trans
    ((transpose_swap_apply _ _ (0 : Fin 1) q).trans
      ((shapeCast_column_apply _ _ q (0 : Fin 1)).trans (lane_sum_apply (mulf (F := Ideal) cs cs) reduces_S1024x256_S1024 hφ hacc q)))

/-- The points against the transposed centres: at (p, q) the inner product of point p and centre q. -/
theorem cross_apply (p : Fin 512) (q : Fin 1024) :
    matmul (F := Ideal) dot_S512x256_S256x1024_S512x1024_1_0_0_1_n_n none (truncf (F := Ideal) .bf16 x bitsLt_bf16_f32)
      (transpose S256x1024 [1, 0] (truncf (F := Ideal) .bf16 cs bitsLt_bf16_f32) transposes_S1024x256_p1_0_S256x1024)
      (constant (F := Ideal) S512x1024 .f32 0x00000000#32) (ix2 p q) = ∑ d : Fin 256, x (ix2 p d) * cs (ix2 q d) :=
  (matmul_zero_plain_apply dot_S512x256_S256x1024_S512x1024_1_0_0_1_n_n cross_plain none _ _ p q).trans
    (Finset.sum_congr rfl fun d _ => congrArg (x (ix2 p d) * ·)
      (transpose_swap_apply (truncf (F := Ideal) .bf16 cs bitsLt_bf16_f32) transposes_S1024x256_p1_0_S256x1024 d q))

/-- The accumulator after a step, at (p, o): what it held plus this step's radial features of point p against its
    1024 centres, each times its weight for unit o. -/
theorem accumulate_apply (p : Fin 512) (o : Fin 128) :
    k0_pay1 (F := Ideal) (k0_pay5 (F := Ideal) x cs rate w acc) (ix2 p o) = acc (ix2 p o) + ∑ q : Fin 1024,
      radial (fun d : Fin 256 => x (ix2 p d)) (fun d : Fin 256 => cs (ix2 q d)) (rate (ix2 (0 : Fin 1) q)) * w (ix2 o q) := by
  unfold k0_pay1 k0_pay5 k0_pay4
  try dsimp only
  rw [shapeCast_self]
  refine congrArg (acc (ix2 p o) + ·) ?_
  refine (matmul_zero_plain_apply dot_S512x1024_S1024x128_S512x128_1_0_0_1_n_n radial_plain none _ _ p o).trans ?_
  refine Finset.sum_congr rfl fun q _ => ?_
  refine congrArg₂ (· * ·) ?_ ?_
  · unfold radial
    refine congrArg Ideal.exp (congrArg₂ (· * ·) (neg_rate_apply rate p q) ?_)
    refine congrArg₂ (· - ·) (congrArg₂ (· + ·) (point_sq_apply x _ _ p q) (centre_sq_apply cs _ _ p q)) ?_
    exact congrArg (two * ·) (cross_apply x cs p q)
  · refine (transpose_swap_apply _ transposes_S128x1024_p1_0_S1024x128 q o).trans ?_
    show shapeCast S128x1024 w shapeCasts_S128x1024_S128x1024 (ix2 o q) = _
    rw [shapeCast_self]

variable (lw : FVec Ideal S128x256 .f32) (bias : FVec Ideal S128 .f32)

/-- What a last step writes out at (p, o): the finished accumulator, plus the linear part of point p for unit o, plus
    the bias of unit o. -/
theorem output_apply (p : Fin 512) (o : Fin 128) :
    k0_pay2 (F := Ideal) (k0_pay4 (F := Ideal) x) lw bias acc (ix2 p o)
      = (acc (ix2 p o) + ∑ d : Fin 256, x (ix2 p d) * lw (ix2 o d)) + bias (ix1 o) := by
  unfold k0_pay2 k0_pay4
  try dsimp only
  refine congrArg₂ (· + ·) (congrArg (acc (ix2 p o) + ·) ?_) ?_
  · refine (matmul_zero_plain_apply dot_S512x256_S256x128_S512x128_1_0_0_1_n_n linear_plain none _ _ p o).trans ?_
    refine Finset.sum_congr rfl fun d _ => congrArg (x (ix2 p d) * ·) ?_
    refine (transpose_swap_apply _ transposes_S128x256_p1_0_S256x128 d o).trans ?_
    show shapeCast S128x256 lw shapeCasts_S128x256_S128x256 (ix2 o d) = _
    rw [shapeCast_self]
  · exact (broadcastTo_row_apply _ _ p o).trans (shapeCast_row_apply bias shapeCasts_S128_S1x128 (0 : Fin 1) o)

/-- The cleared accumulator is zero everywhere. -/
theorem cleared_apply (j : S512x128.Idx) : k0_pay3 (F := Ideal) j = 0 := by
  unfold k0_pay3
  try dsimp only
  rw [shapeCast_self]
  exact Ideal.ofBits_zero_f32

/-! ## A first step and a last step together -/

section TwoSteps

variable (X : (⟨2, ![16384, 256]⟩ : Shape).Idx → EReal) (C : (⟨2, ![2048, 256]⟩ : Shape).Idx → EReal)
  (rates : (⟨2, ![1, 2048]⟩ : Shape).Idx → EReal) (W : (⟨2, ![128, 2304]⟩ : Shape).Idx → EReal)
  (b : (⟨1, ![128]⟩ : Shape).Idx → EReal)

/-- If the first step sees the points of run `i`, the first half of the centres with their rates and radial weights, and the
    last step sees the same points, the second half of the centres with theirs, the linear weights and the bias, then what
    the last step writes out at (p, o) is the layer's output at point 512 i + p, unit o: the accumulator, cleared and then
    fed the two halves of the radial sum, plus the linear part, plus the bias. -/
theorem two_steps (i : Fin 32)
    (xa xb : FVec Ideal S512x256 .f32) (ca cb : FVec Ideal S1024x256 .f32) (ra rb : FVec Ideal S1x1024 .f32)
    (wa wb : FVec Ideal S128x1024 .f32) (lw : FVec Ideal S128x256 .f32) (bias : FVec Ideal S128 .f32)
    (hxa : ∀ (p : Fin 512) (d : Fin 256), xa (ix2 p d) = X (ix2 (row i p) d))
    (hxb : ∀ (p : Fin 512) (d : Fin 256), xb (ix2 p d) = X (ix2 (row i p) d))
    (hca : ∀ (q : Fin 1024) (d : Fin 256), ca (ix2 q d) = C (ix2 (loHalf q) d))
    (hcb : ∀ (q : Fin 1024) (d : Fin 256), cb (ix2 q d) = C (ix2 (hiHalf q) d))
    (hra : ∀ q : Fin 1024, ra (ix2 (0 : Fin 1) q) = rates (ix2 (0 : Fin 1) (loHalf q)))
    (hrb : ∀ q : Fin 1024, rb (ix2 (0 : Fin 1) q) = rates (ix2 (0 : Fin 1) (hiHalf q)))
    (hwa : ∀ (o : Fin 128) (q : Fin 1024), wa (ix2 o q) = W (ix2 o (radCol (loHalf q))))
    (hwb : ∀ (o : Fin 128) (q : Fin 1024), wb (ix2 o q) = W (ix2 o (radCol (hiHalf q))))
    (hlw : ∀ (o : Fin 128) (d : Fin 256), lw (ix2 o d) = W (ix2 o (linCol d)))
    (hb : ∀ o : Fin 128, bias (ix1 o) = b (ix1 o))
    (p : Fin 512) (o : Fin 128) :
    k0_pay2 (F := Ideal) (k0_pay4 (F := Ideal) xb) lw bias
        (k0_pay1 (F := Ideal) (k0_pay5 (F := Ideal) xb cb rb wb
          (k0_pay1 (F := Ideal) (k0_pay5 (F := Ideal) xa ca ra wa (k0_pay3 (F := Ideal)))))) (ix2 p o)
      = layerAt X C rates W b (row i p) o := by
  rw [output_apply, accumulate_apply, accumulate_apply, cleared_apply]
  simp only [hxa, hxb, hca, hcb, hra, hrb, hwa, hwb, hlw, hb]
  exact accumulated_eq
    (fun m : Fin 2048 => feature X C rates (row i p) m * W (ix2 o (radCol m))) (linear X W (row i p) o) (b (ix1 o))

end TwoSteps

end Cert.KernelIdeal.Tile

end
-- ==== Proof.Blocks.lean ====
/-
  What each grid step sees of the five arrays.

  Grid point t of 64 is step (i, j) with i = t / 2 and j = t % 2. There the kernel is handed
    * points 512 i .. 512 i + 511 of the batch,
    * centres 1024 j .. 1024 j + 1023 with their rates,
    * the radial weights of those centres, that is columns 256 + 1024 j .. of the weight matrix,
    * the linear weights, columns 0 .. 255 of the weight matrix, and the whole bias.
  The weight matrix reaches the kernel as two slices the host cuts before the launch: its first 256 columns and its
  last 2048. An element of a block sits in its array, on each axis, at the block's index times the block's extent plus
  the element's own coordinate; the block indices as functions of t are decided once over the 64 points.
-/
import proofs.«137700_j6760278524220_1_alg».proof.Proof.Gen.KernelIdeal.Frame
import proofs.«137700_j6760278524220_1_alg».proof.Proof.RadialSpec
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Rbf

variable (m : (ℓ : Loc nD τ sig) → Buf (Elt Ideal) ℓ)

/-- The block index of every window at grid point t, on each axis. -/
theorem block_index : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = 0 ∧ win0_2.index t (1 : Fin 2) = t.val % 2
    ∧ win0_3.index t (0 : Fin 2) = 0 ∧ win0_3.index t (1 : Fin 2) = 0
    ∧ win0_4.index t (0 : Fin 2) = 0 ∧ win0_4.index t (1 : Fin 2) = t.val % 2
    ∧ win0_5.index t (0 : Fin 1) = 0
    ∧ win0_6.index t (0 : Fin 2) = t.val / 2 ∧ win0_6.index t (1 : Fin 2) = 0 :=
  (by decide +kernel : ∀ t : Fin grid0.N, _)

/-- The run of 512 points that grid point t works on. -/
def runOf (t : Fin cfg0.N) : Fin 32 := ⟨t.val / 2, by have h := t.isLt; have hN : cfg0.N = 64 := N_0; omega⟩

/-! ## The two slices of the weight matrix -/

/-- The linear weights the region finds: the first 256 columns of the weight matrix. -/
theorem lin_weights (c : Dev nD) :
    (V m c main_v0 : S128x256.Idx → EReal)
      = extractStridedSlice S128x256 ![0, 0] (m ((c : Thread nD τ).loc main_arg3)) slices_S128x2304_S128x256_0_0 := by
  dsimp only [Gen.V, Gen.hostOps0]; after_results

/-- The radial weights the region finds: the last 2048 columns of the weight matrix. -/
theorem rad_weights (c : Dev nD) :
    (V m c main_v1 : S128x2048.Idx → EReal)
      = extractStridedSlice S128x2048 ![0, 256] (m ((c : Thread nD τ).loc main_arg3)) slices_S128x2304_S128x2048_0_256 := by
  dsimp only [Gen.V, Gen.hostOps0]; after_results

/-! ## Each window's block, read at coordinates -/

/-- The points a step sees. -/
theorem points_read (c : Dev nD) (t : Fin cfg0.N) (p : Fin 512) (d : Fin 256) :
    (iblk m c 0 t : FVec Ideal S512x256 .f32) (ix2 p d)
      = m ((c : Thread nD τ).loc main_arg0) (ix2 (row (runOf t) p) d) := by
  unfold iblk
  rw [View.read_apply]
  show V m c main_arg0 (((cfg0.win 0).blk t).view.emb (ix2 p d)) = _
  rw [V_main_arg0]
  obtain ⟨e0, e1, -⟩ := block_index t
  refine congrArg _ (funext fun a => Fin.ext ?_)
  match a with
  | ⟨0, _⟩ => show win0_0.index t (0 : Fin 2) * 512 + 1 * p.val = 512 * (t.val / 2) + p.val; rw [e0]; omega
  | ⟨1, _⟩ => show win0_0.index t (1 : Fin 2) * 256 + 1 * d.val = d.val; rw [e1]; omega

/-- The centres a step sees, at a point of the grid whose second coordinate is j. -/
theorem centres_read (c : Dev nD) (t : Fin cfg0.N) (j : ℕ) (hj : t.val % 2 = j) (q : Fin 1024) (d : Fin 256)
    (hq : 1024 * j + q.val < 2048) :
    (iblk m c 1 t : FVec Ideal S1024x256 .f32) (ix2 q d)
      = m ((c : Thread nD τ).loc main_arg1) (ix2 (⟨1024 * j + q.val, hq⟩ : Fin 2048) d) := by
  unfold iblk
  rw [View.read_apply]
  show V m c main_arg1 (((cfg0.win 1).blk t).view.emb (ix2 q d)) = _
  rw [V_main_arg1]
  obtain ⟨-, -, e0, e1, -⟩ := block_index t
  refine congrArg _ (funext fun a => Fin.ext ?_)
  match a with
  | ⟨0, _⟩ => show win0_1.index t (0 : Fin 2) * 1024 + 1 * q.val = 1024 * j + q.val; rw [e0, hj]; omega
  | ⟨1, _⟩ => show win0_1.index t (1 : Fin 2) * 256 + 1 * d.val = d.val; rw [e1]; omega

/-- The rates a step sees. -/
theorem rates_read (c : Dev nD) (t : Fin cfg0.N) (j : ℕ) (hj : t.val % 2 = j) (q : Fin 1024)
    (hq : 1024 * j + q.val < 2048) :
    (iblk m c 2 t : FVec Ideal S1x1024 .f32) (ix2 (0 : Fin 1) q)
      = m ((c : Thread nD τ).loc main_arg2) (ix2 (0 : Fin 1) (⟨1024 * j + q.val, hq⟩ : Fin 2048)) := by
  unfold iblk
  rw [View.read_apply]
  show V m c main_arg2 (((cfg0.win 2).blk t).view.emb (ix2 (0 : Fin 1) q)) = _
  rw [V_main_arg2]
  obtain ⟨-, -, -, -, e0, e1, -⟩ := block_index t
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = 1024 * j + q.val; rw [e1, hj]; omega

/-- The linear weights a step sees. -/
theorem lin_weights_read (c : Dev nD) (t : Fin cfg0.N) (o : Fin 128) (d : Fin 256) :
    (iblk m c 3 t : FVec Ideal S128x256 .f32) (ix2 o d)
      = m ((c : Thread nD τ).loc main_arg3) (ix2 o (linCol d)) := by
  unfold iblk
  rw [View.read_apply]
  show (V m c main_v0 : S128x256.Idx → EReal) (((cfg0.win 3).blk t).view.emb (ix2 o d)) = _
  rw [lin_weights]
  unfold extractStridedSlice
  obtain ⟨-, -, -, -, -, -, e0, e1, -⟩ := block_index t
  refine congrArg _ (funext fun a => Fin.ext ?_)
  match a with
  | ⟨0, _⟩ => show 0 + (win0_3.index t (0 : Fin 2) * 128 + 1 * o.val) = o.val; rw [e0]; omega
  | ⟨1, _⟩ => show 0 + (win0_3.index t (1 : Fin 2) * 256 + 1 * d.val) = d.val; rw [e1]; omega

/-- The radial weights a step sees. -/
theorem rad_weights_read (c : Dev nD) (t : Fin cfg0.N) (j : ℕ) (hj : t.val % 2 = j) (o : Fin 128) (q : Fin 1024)
    (hq : 1024 * j + q.val < 2048) :
    (iblk m c 4 t : FVec Ideal S128x1024 .f32) (ix2 o q)
      = m ((c : Thread nD τ).loc main_arg3) (ix2 o (radCol (⟨1024 * j + q.val, hq⟩ : Fin 2048))) := by
  unfold iblk
  rw [View.read_apply]
  show (V m c main_v1 : S128x2048.Idx → EReal) (((cfg0.win 4).blk t).view.emb (ix2 o q)) = _
  rw [rad_weights]
  unfold extractStridedSlice
  obtain ⟨-, -, -, -, -, -, -, -, e0, e1, -⟩ := block_index t
  refine congrArg _ (funext fun a => Fin.ext ?_)
  match a with
  | ⟨0, _⟩ => show 0 + (win0_4.index t (0 : Fin 2) * 128 + 1 * o.val) = o.val; rw [e0]; omega
  | ⟨1, _⟩ => show 256 + (win0_4.index t (1 : Fin 2) * 1024 + 1 * q.val) = 256 + (1024 * j + q.val); rw [e1, hj]; omega

/-- The bias a step sees. -/
theorem bias_read (c : Dev nD) (t : Fin cfg0.N) (o : Fin 128) :
    (iblk m c 5 t : FVec Ideal S128 .f32) (ix1 o) = m ((c : Thread nD τ).loc main_arg4) (ix1 o) := by
  unfold iblk
  rw [View.read_apply]
  show V m c main_arg4 (((cfg0.win 5).blk t).view.emb (ix1 o)) = _
  rw [V_main_arg4]
  obtain ⟨-, -, -, -, -, -, -, -, -, -, e0, -⟩ := block_index t
  refine congrArg _ (funext fun a => Fin.ext ?_)
  match a with
  | ⟨0, _⟩ => show win0_5.index t (0 : Fin 1) * 128 + 1 * o.val = o.val; rw [e0]; omega

end Cert.KernelIdeal.Blocks

end
-- ==== Proof.KernelLayer.lean ====
/-
  The kernel's result array is the layer.

  The output block of 512 points is written back once per run of points, after the second of its two steps. What is
  written back there is the accumulator — cleared by the first step, fed the first half of the radial sum by the first
  step and the second half by the second — plus the linear part plus the bias; with what each step sees of the five
  arrays, that is the layer's output on those 512 points. Run i's block is written at grid point 2 i + 1, and the 32
  blocks cover the 16384 points, so the whole array ends holding the layer of the launch arrays.
-/
import proofs.«137700_j6760278524220_1_alg».proof.Proof.Gen.KernelIdeal.Value
import proofs.«137700_j6760278524220_1_alg».proof.Proof.StepPieces
import proofs.«137700_j6760278524220_1_alg».proof.Proof.TileValue
import proofs.«137700_j6760278524220_1_alg».proof.Proof.Blocks

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Rbf Cert.KernelIdeal.Blocks Cert.KernelIdeal.Tile

variable (m : (ℓ : Loc nD τ sig) → Buf (Elt Ideal) ℓ) (ρ : Dev nD → PrngReg)

/-- The layer of the arrays core `c` is launched with. -/
abbrev result (c : Dev nD) : (⟨2, ![16384, 128]⟩ : Shape).Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- What a second step writes back is its block of the layer. -/
theorem flushed_eq (c : Dev nD) (t : Fin cfg0.N) (hf : (cfg0.win 6).flush t = true) :
    (dats m 0 c).flushed 6 t = ((cfg0.win 6).blk t).view.read (Elt Ideal) (result m c) := by
  have hN : cfg0.N = 64 := N_0
  have h1 : t.val % 2 = 1 := (flush0_6 t).mp hf
  have h0 : ¬t.val % 2 = 0 := by omega
  have hlt : t.val - 1 < cfg0.N := Nat.lt_of_le_of_lt (Nat.sub_le _ _) t.isLt
  -- the step before: the first of the pair
  have g0 : (⟨t.val - 1, hlt⟩ : Fin cfg0.N).val % 2 = 0 := by show (t.val - 1) % 2 = 0; omega
  have g1 : ¬(⟨t.val - 1, hlt⟩ : Fin cfg0.N).val % 2 = 1 := by show ¬(t.val - 1) % 2 = 1; omega
  have hrun : runOf (⟨t.val - 1, hlt⟩ : Fin cfg0.N) = runOf t := Fin.ext (by show (t.val - 1) / 2 = t.val / 2; omega)
  have hS : (outsAt0 m c (t.val - 1) hlt).2
      = Step.accumulate (iblk m c 0 ⟨t.val - 1, hlt⟩) (iblk m c 1 ⟨t.val - 1, hlt⟩) (iblk m c 2 ⟨t.val - 1, hlt⟩)
          (iblk m c 4 ⟨t.val - 1, hlt⟩) (k0_pay3 (F := Ideal)) :=
    (congrArg Prod.snd (outsAt0_A m c ⟨t.val - 1, hlt⟩ g0 g1)).trans
      (Step.acc_first c (grid0.coords ⟨t.val - 1, hlt⟩) (ms0_0 ⟨t.val - 1, hlt⟩) (hs0_0 ⟨t.val - 1, hlt⟩) (ms0_1 ⟨t.val - 1, hlt⟩) (hs0_1 ⟨t.val - 1, hlt⟩) (ms0_2 ⟨t.val - 1, hlt⟩) (hs0_2 ⟨t.val - 1, hlt⟩) (ms0_3 ⟨t.val - 1, hlt⟩) (hs0_3 ⟨t.val - 1, hlt⟩) (ms0_4 ⟨t.val - 1, hlt⟩) (hs0_4 ⟨t.val - 1, hlt⟩) (ms0_5 ⟨t.val - 1, hlt⟩) (hs0_5 ⟨t.val - 1, hlt⟩) (ms0_6 ⟨t.val - 1, hlt⟩) (hs0_6 ⟨t.val - 1, hlt⟩) scM0_0 (Memref.isWhole_whole _) ((hcond0_0 ⟨t.val - 1, hlt⟩).mpr g0) (fun h => g1 ((hcond0_1 ⟨t.val - 1, hlt⟩).mp h)) (iblk m c 0 ⟨t.val - 1, hlt⟩) (iblk m c 1 ⟨t.val - 1, hlt⟩) (iblk m c 2 ⟨t.val - 1, hlt⟩) (iblk m c 3 ⟨t.val - 1, hlt⟩) (iblk m c 4 ⟨t.val - 1, hlt⟩) (iblk m c 5 ⟨t.val - 1, hlt⟩))
  rw [Cert.KernelIdeal.Value.flushed6_B m c t h0 h1, hS,
    Step.out_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
      (Step.accumulate (iblk m c 0 ⟨t.val - 1, hlt⟩) (iblk m c 1 ⟨t.val - 1, hlt⟩) (iblk m c 2 ⟨t.val - 1, hlt⟩)
          (iblk m c 4 ⟨t.val - 1, hlt⟩) (k0_pay3 (F := Ideal)))]
  funext y
  have hp : (y 0).val < 512 := (win0_6.xinj (grid0.coords t) y 0).isLt
  have ho : (y 1).val < 128 := (win0_6.xinj (grid0.coords t) y 1).isLt
  obtain ⟨-, -, -, -, -, -, -, -, -, -, -, e0, e1⟩ := block_index t
  have hin : win0_6.xinj (grid0.coords t) y = ix2 (⟨(y 0).val, hp⟩ : Fin 512) (⟨(y 1).val, ho⟩ : Fin 128) :=
    funext fun a => by match a with | ⟨0, _⟩ => rfl | ⟨1, _⟩ => rfl
  have hemb : ((cfg0.win 6).blk t).view.emb y
      = ix2 (row (runOf t) (⟨(y 0).val, hp⟩ : Fin 512)) (⟨(y 1).val, ho⟩ : Fin 128) := by
    funext a; apply Fin.ext
    match a with
    | ⟨0, _⟩ => show win0_6.index t (0 : Fin 2) * 512 + 1 * (y 0).val = 512 * (t.val / 2) + (y 0).val; rw [e0]; omega
    | ⟨1, _⟩ => show win0_6.index t (1 : Fin 2) * 128 + 1 * (y 1).val = (y 1).val; rw [e1]; omega
  show k0_pay2 (F := Ideal) (k0_pay4 (F := Ideal) (iblk m c 0 t)) (iblk m c 3 t) (iblk m c 5 t)
      (k0_pay1 (F := Ideal) (k0_pay5 (F := Ideal) (iblk m c 0 t) (iblk m c 1 t) (iblk m c 2 t) (iblk m c 4 t)
        (k0_pay1 (F := Ideal) (k0_pay5 (F := Ideal) (iblk m c 0 ⟨t.val - 1, hlt⟩) (iblk m c 1 ⟨t.val - 1, hlt⟩)
          (iblk m c 2 ⟨t.val - 1, hlt⟩) (iblk m c 4 ⟨t.val - 1, hlt⟩) (k0_pay3 (F := Ideal))))))
      (win0_6.xinj (grid0.coords t) y) = result m c (((cfg0.win 6).blk t).view.emb y)
  rw [hemb, hin]
  exact two_steps (m ((c : Thread nD τ).loc main_arg0)) (m ((c : Thread nD τ).loc main_arg1)) (m ((c : Thread nD τ).loc main_arg2))
    (m ((c : Thread nD τ).loc main_arg3)) (m ((c : Thread nD τ).loc main_arg4)) (runOf t)
    (iblk m c 0 ⟨t.val - 1, hlt⟩) (iblk m c 0 t) (iblk m c 1 ⟨t.val - 1, hlt⟩) (iblk m c 1 t)
    (iblk m c 2 ⟨t.val - 1, hlt⟩) (iblk m c 2 t) (iblk m c 4 ⟨t.val - 1, hlt⟩) (iblk m c 4 t) (iblk m c 3 t) (iblk m c 5 t)
    (fun p d => (points_read m c ⟨t.val - 1, hlt⟩ p d).trans (by rw [hrun]))
    (fun p d => points_read m c t p d)
    (fun q d => (centres_read m c ⟨t.val - 1, hlt⟩ 0 g0 q d (by have := q.isLt; omega)).trans
      (congrArg (fun k => m ((c : Thread nD τ).loc main_arg1) (ix2 k d)) (Fin.ext (by show 1024 * 0 + q.val = q.val; omega))))
    (fun q d => (centres_read m c t 1 h1 q d (by have := q.isLt; omega)).trans
      (congrArg (fun k => m ((c : Thread nD τ).loc main_arg1) (ix2 k d)) (Fin.ext (by show 1024 * 1 + q.val = 1024 + q.val; omega))))
    (fun q => (rates_read m c ⟨t.val - 1, hlt⟩ 0 g0 q (by have := q.isLt; omega)).trans
      (congrArg (fun k => m ((c : Thread nD τ).loc main_arg2) (ix2 (0 : Fin 1) k)) (Fin.ext (by show 1024 * 0 + q.val = q.val; omega))))
    (fun q => (rates_read m c t 1 h1 q (by have := q.isLt; omega)).trans
      (congrArg (fun k => m ((c : Thread nD τ).loc main_arg2) (ix2 (0 : Fin 1) k)) (Fin.ext (by show 1024 * 1 + q.val = 1024 + q.val; omega))))
    (fun o q => (rad_weights_read m c ⟨t.val - 1, hlt⟩ 0 g0 o q (by have := q.isLt; omega)).trans
      (congrArg (fun k => m ((c : Thread nD τ).loc main_arg3) (ix2 o (radCol k))) (Fin.ext (by show 1024 * 0 + q.val = q.val; omega))))
    (fun o q => (rad_weights_read m c t 1 h1 o q (by have := q.isLt; omega)).trans
      (congrArg (fun k => m ((c : Thread nD τ).loc main_arg3) (ix2 o (radCol k))) (Fin.ext (by show 1024 * 1 + q.val = 1024 + q.val; omega))))
    (fun o d => lin_weights_read m c t o d)
    (fun o => bias_read m c t o)
    (⟨(y 0).val, hp⟩ : Fin 512) (⟨(y 1).val, ho⟩ : Fin 128)

/-- Every point of the array lies in the block written back after its run's second step. -/
theorem covered (i : S16384x128.Idx) :
    ∃ t : Fin cfg0.N, (cfg0.win 6).flush t = true ∧ i ∈ ((cfg0.win 6).blk t).view.set := by
  have hN : cfg0.N = 64 := N_0
  have hi0 : (i 0).val < 16384 := (i 0).isLt
  have hi1 : (i 1).val < 128 := (i 1).isLt
  have ht : 2 * ((i 0).val / 512) + 1 < cfg0.N := by omega
  refine ⟨⟨2 * ((i 0).val / 512) + 1, ht⟩, (flush0_6 _).mpr (by show (2 * ((i 0).val / 512) + 1) % 2 = 1; omega), ?_⟩
  obtain ⟨-, -, -, -, -, -, -, -, -, -, -, e0, e1⟩ := block_index ⟨2 * ((i 0).val / 512) + 1, ht⟩
  show i ∈ ((View.whole main_v2).slice (win0_6.rect ⟨2 * ((i 0).val / 512) + 1, ht⟩)).set
  rw [View.set_slice_whole, Rect.mem_set_unit]
  intro a
  match a with
  | ⟨0, _⟩ =>
    show win0_6.index ⟨2 * ((i 0).val / 512) + 1, ht⟩ (0 : Fin 2) * 512 ≤ (i 0).val
      ∧ (i 0).val < win0_6.index ⟨2 * ((i 0).val / 512) + 1, ht⟩ (0 : Fin 2) * 512 + 512
    rw [e0]
    show (2 * ((i 0).val / 512) + 1) / 2 * 512 ≤ (i 0).val ∧ (i 0).val < (2 * ((i 0).val / 512) + 1) / 2 * 512 + 512
    omega
  | ⟨1, _⟩ =>
    show win0_6.index ⟨2 * ((i 0).val / 512) + 1, ht⟩ (1 : Fin 2) * 128 ≤ (i 1).val
      ∧ (i 1).val < win0_6.index ⟨2 * ((i 0).val / 512) + 1, ht⟩ (1 : Fin 2) * 128 + 128
    rw [e1]
    omega

/-- After the run the result array holds the layer of the launch arrays. -/
theorem final (c : Dev nD) : (dats m 0 c).arrAt 6 cfg0.N = result m c :=
  (dats m 0 c).arrAt_eq_of_cover 6 (result m c) (flushed_eq m c) covered

/-- The kernel's run: it ends, nothing faults, the result array holds the layer and the arguments are as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefLayer.lean ====
/-
  The reference program computes the layer.

  The reference forms the squared lengths of the points and of the centres, their inner products, the radial
  features exp(-rate * (|x|^2 + |c|^2 - 2 <x, c>)), lays the 256 coordinates of each point and its 2048 features side by
  side as one row of 2304 entries, multiplies by the transposed weights and adds the bias. Entry by entry on the extended
  reals that is the layer's function: each sum the host starts from the zero word is the plain sum, the host's negation
  and exponential are the extended reals' own, a row of the side-by-side array is the point's coordinate in its first
  256 places and a feature in the rest, and the one sum over 2304 columns splits into the linear and the radial sums.
-/
import proofs.«137700_j6760278524220_1_alg».proof.Proof.Gen.ReferenceIdeal.Read
import proofs.«137700_j6760278524220_1_alg».proof.Proof.RadialSpec

noncomputable section

namespace Cert.ReferenceIdeal.Layer

open Cert.ReferenceIdeal Cert.ReferenceIdeal.Gen Cert.ReferenceIdeal.Read Idealize.ShloMosaic Idealize.ShloMosaic.ValueIdx Cert.Rbf

variable (x0 : (⟨S16384x256, .f32⟩ : BufTy).Contents (Elt Ideal)) (x1 : (⟨S2048x256, .f32⟩ : BufTy).Contents (Elt Ideal))
  (x2 : (⟨S1x2048, .f32⟩ : BufTy).Contents (Elt Ideal)) (x3 : (⟨S128x2304, .f32⟩ : BufTy).Contents (Elt Ideal))
  (x4 : (⟨S128, .f32⟩ : BufTy).Contents (Elt Ideal))

/-! ## Where each stage reads its operands, at a point n and a centre m -/

theorem rate_at (n : Fin 16384) (m : Fin 2048) : idx_main_v15 (ix2 n m) = ix2 (0 : Fin 1) m :=
  funext fun a => Fin.ext (by match a with | ⟨0, _⟩ => rfl | ⟨1, _⟩ => rfl)

theorem point_sq_at (n : Fin 16384) (m : Fin 2048) (k : Fin 256) :
    idx_main_v1 (idx_main_v2 (idx_main_v8 (ix2 n m))) k = ix2 n k :=
  funext fun a => Fin.ext (by match a with | ⟨0, _⟩ => rfl | ⟨1, _⟩ => rfl)

theorem centre_sq_at (n : Fin 16384) (m : Fin 2048) (k : Fin 256) :
    idx_main_v4 (idx_main_v5 (idx_main_v9 (ix2 n m))) k = ix2 m k :=
  funext fun a => Fin.ext (by match a with | ⟨0, _⟩ => rfl | ⟨1, _⟩ => rfl)

theorem cross_point_at (n : Fin 16384) (m : Fin 2048) (k : Fin 256) : lidx_main_v7 (ix2 n m) k = ix2 n k :=
  funext fun a => Fin.ext (by match a with | ⟨0, _⟩ => rfl | ⟨1, _⟩ => rfl)

theorem cross_centre_at (n : Fin 16384) (m : Fin 2048) (k : Fin 256) :
    idx_main_v6 (ridx_main_v7 (ix2 n m) k) = ix2 m k :=
  funext fun a => Fin.ext (by match a with | ⟨0, _⟩ => rfl | ⟨1, _⟩ => rfl)

/-- The reference's exponential stage at (n, m) is the radial feature of point n against centre m. -/
theorem feature_eq (n : Fin 16384) (m : Fin 2048) :
    val_main_v17 (F := Ideal) x0 x1 x2 (ix2 n m) = feature x0 x1 x2 n m := by
  rw [val_main_v17_apply, val_main_v16_apply, val_main_v15_apply, val_main_v14_apply, val_main_v13_apply,
    val_main_v10_apply, val_main_v8_apply, val_main_v2_apply, val_main_v1_apply, val_main_v9_apply, val_main_v5_apply,
    val_main_v4_apply, val_main_v12_apply, val_main_v11_apply, val_main_cst_1_apply, val_main_v7_apply]
  simp only [val_main_v0_apply, val_main_v3_apply, val_main_v6_apply, val_main_cst_apply, val_main_cst_0_apply,
    rate_at, point_sq_at, centre_sq_at, cross_point_at, cross_centre_at,
    Ideal.hostUnary_exp_def, Ideal.mulf_def, Ideal.subf_def, Ideal.addf_def, Ideal.hostNegf_def, Ideal.negf_def,
    Ideal.ofBits_def, Ideal.ofBits_zero_f32, zero_add]
  rfl

/-! ## A row of the side-by-side array -/

/-- In its first 256 places a row holds the point's coordinates. -/
theorem joined_lin (n : Fin 16384) (d : Fin 256) :
    val_main_v18 (F := Ideal) x0 x1 x2 (ix2 n (linCol d)) = x0 (ix2 n d) := by
  unfold val_main_v18
  exact concatenate_pair_apply_left 1 x0 _ concatenates_S16384x256_S16384x2048_S16384x2304_d1 _ rfl (ix2 n d)
    (fun bx => by match bx with | ⟨0, _⟩ => rfl | ⟨1, _⟩ => rfl)

/-- From place 256 on a row holds the point's radial features. -/
theorem joined_rad (n : Fin 16384) (m : Fin 2048) :
    val_main_v18 (F := Ideal) x0 x1 x2 (ix2 n (radCol m)) = feature x0 x1 x2 n m := by
  unfold val_main_v18
  refine (concatenate_pair_apply_right 1 x0 _ concatenates_S16384x256_S16384x2048_S16384x2304_d1 _ rfl rfl (ix2 n m)
    (fun bx hb => by match bx with | ⟨0, _⟩ => rfl | ⟨1, _⟩ => exact absurd rfl hb)
    (by show m.val + 256 = 256 + m.val; omega)).trans ?_
  exact feature_eq x0 x1 x2 n m

/-! ## Where the last stages read, at a point n and a unit o -/

theorem joined_at (n : Fin 16384) (o : Fin 128) (k : Fin 2304) : lidx_main_v20 (ix2 n o) k = ix2 n k :=
  funext fun a => Fin.ext (by match a with | ⟨0, _⟩ => rfl | ⟨1, _⟩ => rfl)

theorem weight_at (n : Fin 16384) (o : Fin 128) (k : Fin 2304) : idx_main_v19 (ridx_main_v20 (ix2 n o) k) = ix2 o k :=
  funext fun a => Fin.ext (by match a with | ⟨0, _⟩ => rfl | ⟨1, _⟩ => rfl)

theorem bias_at (n : Fin 16384) (o : Fin 128) : idx_main_v21 (idx_main_v22 (ix2 n o)) = ix1 o :=
  funext fun a => Fin.ext (by match a with | ⟨0, _⟩ => rfl)

/-- The reference's result is the layer's function of its five arguments. -/
theorem result_eq : val_main_v23 (F := Ideal) x0 x1 x2 x3 x4 = layer x0 x1 x2 x3 x4 := by
  funext j
  obtain ⟨n, o, rfl⟩ : ∃ (n : Fin 16384) (o : Fin 128), j = ix2 n o := ⟨j 0, j 1, eq_ix2 j⟩
  rw [layer_apply, val_main_v23_apply, val_main_v20_apply, val_main_v22_apply, val_main_v21_apply]
  simp only [val_main_v19_apply, joined_at, weight_at, bias_at, Ideal.addf_def]
  rw [sum_columns (fun k : Fin 2304 => val_main_v18 (F := Ideal) x0 x1 x2 (ix2 n k) * x3 (ix2 o k))]
  simp only [joined_lin, joined_rad]
  rfl

end Cert.ReferenceIdeal.Layer

end
-- ==== Proof.lean ====
/-
  A layer of radial basis functions computed tile by tile is the layer computed at once.

  Both programs take a batch of 16384 points in 256 coordinates, 2048 centres with a rate each, a weight matrix of 128
  rows and 256 + 2048 columns and a bias, and return for every point and every one of 128 units

      sum over d of x(d) * W(o, d)  +  sum over m of exp(-rate(m) * (|x|^2 + |c(m)|^2 - 2 <x, c(m)>)) * W(o, 256 + m)  +  b(o).

  The reference lays a point's coordinates and its 2048 radial features side by side and takes one product with the
  transposed weights. The kernel works on 512 points at a time and on the centres in two halves of 1024: it keeps an
  accumulator of the radial sum, clears it at the first half, and after the second half adds the linear part and the
  bias and writes the 512 outputs back. On the extended reals, where every float operation is exact and a change of float
  format is the identity, the two are the same function of the five arrays: the squared distance is spelt the same way
  in both, zero minus a rate is the rate negated, a sum started from the zero word is the plain sum, and a finite sum over
  a range laid end to end from parts is the sum of the parts' sums. Only commutativity and associativity of addition
  are used, so the finiteness of the inputs is not.

  The idealized kernel is the kernel's own text read on the extended reals: nothing was rewritten, and that claim is
  trivial. The three programs run to the end without a fault and leave their arguments as they found them.
-/
import proofs.«137700_j6760278524220_1_alg».proof.Defs
import proofs.«137700_j6760278524220_1_alg».proof.Proof.Gen.Kernel
import proofs.«137700_j6760278524220_1_alg».proof.Proof.Gen.Kernel.Frame
import proofs.«137700_j6760278524220_1_alg».proof.Proof.Gen.KernelIdeal
import proofs.«137700_j6760278524220_1_alg».proof.Proof.Gen.KernelIdeal.Frame
import proofs.«137700_j6760278524220_1_alg».proof.Proof.Gen.KernelIdeal.Value
import proofs.«137700_j6760278524220_1_alg».proof.Proof.Gen.ReferenceIdeal
import proofs.«137700_j6760278524220_1_alg».proof.Proof.Gen.ReferenceIdeal.Run
import proofs.«137700_j6760278524220_1_alg».proof.Proof.Gen.ReferenceIdeal.Read
import proofs.«137700_j6760278524220_1_alg».proof.Proof.Gen.Pre_finite_inputs
import proofs.«137700_j6760278524220_1_alg».proof.Proof.KernelLayer
import proofs.«137700_j6760278524220_1_alg».proof.Proof.RefLayer
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ideal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the five arrays, the kernel's result array ends holding the layer of its arrays and the
    reference's result ends holding the layer of its own: the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Layer.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
